-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x128 : Shape := ⟨2, ![160000, 128]⟩
abbrev S160000x4 : Shape := ⟨2, ![160000, 4]⟩
abbrev S_ : Shape := ⟨0, ![]⟩

class Facts : Prop where
  bcast_S_S160000x128 : S_.BroadcastsInDim S160000x128 (![] : Fin 0 → Fin S160000x128.rank)
  reducesTo_S160000x128_S_d0_1 : S160000x128.ReducesTo [0, 1] S_
  h_S_ : 0 < S_.numel

variable [Facts]

def fn {F : FTy → Type} [FloatOps F] (main_arg0 : FVec F S160000x128 .f32) (main_arg1 : IVec S160000x4 32) : IVec S_ 1 :=
  let main_v0 : FVec F S160000x128 .f32 := Host.absf main_arg0
  let main_cst : FVec F S_ .f32 := constant S_ .f32 0x7F800000#32
  let main_v1 : FVec F S160000x128 .f32 := broadcastInDim S160000x128 ![] bcast_S_S160000x128 main_cst
  let main_v2 : IVec S160000x128 1 := cmpf .olt main_v0 main_v1
  let main_c : IVec S_ 1 := constantI S_ 1 1#1
  let main_v3 : IVec S_ 1 := (fun x v => Host.reduce IntOp.andi x v reducesTo_S160000x128_S_d0_1 h_S_) main_v2 main_c
  main_v3
-- ==== Kernel.lean ====
abbrev S160000x128 : Shape := ⟨2, ![160000, 128]⟩
abbrev S160000x4 : Shape := ⟨2, ![160000, 4]⟩
abbrev S160000x1 : Shape := ⟨2, ![160000, 1]⟩
abbrev S160000 : Shape := ⟨1, ![160000]⟩
abbrev S_ : Shape := ⟨0, ![]⟩
abbrev S518400x128 : Shape := ⟨2, ![518400, 128]⟩
abbrev S518400 : Shape := ⟨1, ![518400]⟩
abbrev S4x360x360x128 : Shape := ⟨4, ![4, 360, 360, 128]⟩
abbrev S4x360x360 : Shape := ⟨3, ![4, 360, 360]⟩
abbrev S4x128x360x360 : Shape := ⟨4, ![4, 128, 360, 360]⟩
abbrev S1x24x360x128 : Shape := ⟨4, ![1, 24, 360, 128]⟩
abbrev S1x24x360 : Shape := ⟨3, ![1, 24, 360]⟩
abbrev S1x128x24x360 : Shape := ⟨4, ![1, 128, 24, 360]⟩
abbrev S24x360x128 : Shape := ⟨3, ![24, 360, 128]⟩
abbrev S24x360 : Shape := ⟨2, ![24, 360]⟩
abbrev S24x360x1 : Shape := ⟨3, ![24, 360, 1]⟩
abbrev S128x24x360 : Shape := ⟨3, ![128, 24, 360]⟩

abbrev nBuf : Space → Nat
  | .hbm => 35
  | .vmem => 6
  | .smem => 0
  | _ => 0

abbrev bufTy : (tb : Table) → Fin (tcTables nBuf tb) → BufTy
  | .hbm, ⟨0, _⟩ => ⟨S160000x128, .f32⟩
  | .hbm, ⟨1, _⟩ => ⟨S160000x4, .i32⟩
  | .hbm, ⟨2, _⟩ => ⟨S160000x1, .i32⟩
  | .hbm, ⟨3, _⟩ => ⟨S160000, .i32⟩
  | .hbm, ⟨4, _⟩ => ⟨S_, .i32⟩
  | .hbm, ⟨5, _⟩ => ⟨S160000, .i32⟩
  | .hbm, ⟨6, _⟩ => ⟨S160000, .i32⟩
  | .hbm, ⟨7, _⟩ => ⟨S160000x1, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .i32⟩
  | .hbm, ⟨14, _⟩ => ⟨S160000, .i32⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000, .i32⟩
  | .hbm, ⟨21, _⟩ => ⟨S160000, .i32⟩
  | .hbm, ⟨22, _⟩ => ⟨S_, .f32⟩
  | .hbm, ⟨23, _⟩ => ⟨S518400x128, .f32⟩
  | .hbm, ⟨24, _⟩ => ⟨S160000x1, .i32⟩
  | .hbm, ⟨25, _⟩ => ⟨S518400x128, .f32⟩
  | .hbm, ⟨26, _⟩ => ⟨S_, .f32⟩
  | .hbm, ⟨27, _⟩ => ⟨S160000, .f32⟩
  | .hbm, ⟨28, _⟩ => ⟨S_, .f32⟩
  | .hbm, ⟨29, _⟩ => ⟨S518400, .f32⟩
  | .hbm, ⟨30, _⟩ => ⟨S160000x1, .i32⟩
  | .hbm, ⟨31, _⟩ => ⟨S518400, .f32⟩
  | .hbm, ⟨32, _⟩ => ⟨S4x360x360x128, .f32⟩
  | .hbm, ⟨33, _⟩ => ⟨S4x360x360, .f32⟩
  | .hbm, ⟨34, _⟩ => ⟨S4x128x360x360, .f32⟩
  | .local _ .vmem, ⟨0, _⟩ => ⟨S1x24x360x128, .f32⟩
  | .local _ .vmem, ⟨1, _⟩ => ⟨S1x24x360x128, .f32⟩
  | .local _ .vmem, ⟨2, _⟩ => ⟨S1x24x360, .f32⟩
  | .local _ .vmem, ⟨3, _⟩ => ⟨S1x24x360, .f32⟩
  | .local _ .vmem, ⟨4, _⟩ => ⟨S1x128x24x360, .f32⟩
  | .local _ .vmem, ⟨5, _⟩ => ⟨S1x128x24x360, .f32⟩
  | _, _ => ⟨S160000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 15], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x24x360x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x24x360 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x24x360 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S160000x4_S160000x1_0_0 : S160000x4.Slices ![0, 0] S160000x1
  shapeCasts_S160000x1_S160000 : S160000x1.ShapeCasts S160000
  bcast_S_S160000 : S_.BroadcastsInDim S160000 (![] : Fin 0 → Fin S160000.rank)
  slices_S160000x4_S160000x1_0_1 : S160000x4.Slices ![0, 1] S160000x1
  slices_S160000x4_S160000x1_0_2 : S160000x4.Slices ![0, 2] S160000x1
  slices_S160000x4_S160000x1_0_3 : S160000x4.Slices ![0, 3] S160000x1
  bcast_S_S518400x128 : S_.BroadcastsInDim S518400x128 (![] : Fin 0 → Fin S518400x128.rank)
  bcast_S160000_S160000x1_0 : S160000.BroadcastsInDim S160000x1 (![0] : Fin 1 → Fin S160000x1.rank)
  bcast_S_S518400 : S_.BroadcastsInDim S518400 (![] : Fin 0 → Fin S518400.rank)
  shapeCasts_S518400x128_S4x360x360x128 : S518400x128.ShapeCasts S4x360x360x128
  shapeCasts_S518400_S4x360x360 : S518400.ShapeCasts S4x360x360
  inb_S1x24x360x128_S1x24x360x128_0_0_0_0 : ∀ a, (![0, 0, 0, 0] : Fin 4 → Nat) a + S1x24x360x128.size a ≤ S1x24x360x128.size a
  h_S1x24x360x128 : 0 < S1x24x360x128.numel
  shapeCasts_S1x24x360x128_S24x360x128 : S1x24x360x128.ShapeCasts S24x360x128
  inb_S1x24x360_S1x24x360_0_0_0 : ∀ a, (![0, 0, 0] : Fin 3 → Nat) a + S1x24x360.size a ≤ S1x24x360.size a
  h_S1x24x360 : 0 < S1x24x360.numel
  shapeCasts_S1x24x360_S24x360 : S1x24x360.ShapeCasts S24x360
  shapeCasts_S24x360_S24x360x1 : S24x360.ShapeCasts S24x360x1
  broadcasts_S24x360x1_S24x360x128 : S24x360x1.Broadcasts S24x360x128
  transposes_S24x360x128_p2_0_1_S128x24x360 : S24x360x128.Transposes [2, 0, 1] S128x24x360
  inb_S1x128x24x360_S1x128x24x360_0_0_0_0 : ∀ a, (![0, 0, 0, 0] : Fin 4 → Nat) a + S1x128x24x360.size a ≤ S1x128x24x360.size a
  h_S1x128x24x360 : 0 < S1x128x24x360.numel
  shapeCasts_S1x128x24x360_S128x24x360 : S1x128x24x360.ShapeCasts S128x24x360
  shapeCasts_S128x24x360_S1x128x24x360 : S128x24x360.ShapeCasts S1x128x24x360
  scatter_S518400x128_S160000x1_S160000x128_1_0_0_1_wf : ScatterDims.WF S518400x128 S160000x1 S160000x128 [1] [0] [0] 1
  scatter_S518400_S160000x1_S160000_n_0_0_1_wf : ScatterDims.WF S518400 S160000x1 S160000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24x360x128.size a ≤ S4x360x360x128.size a
  hwx0_0 : ∀ i : grid0.Coords, EltTy.bits .f32 = 32 ∨ (Rect.block (s := S4x360x360x128) S1x24x360x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x24x360.size a ≤ S4x360x360.size a
  hwx0_1 : ∀ i : grid0.Coords, EltTy.bits .f32 = 32 ∨ (Rect.block (s := S4x360x360) S1x24x360.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x24x360.size a ≤ S4x128x360x360.size a
  hwx0_2 : ∀ i : grid0.Coords, EltTy.bits .f32 = 32 ∨ (Rect.block (s := S4x128x360x360) S1x128x24x360.size (cc0_transform_2 i) (hinb0_2 i)).WholeWords (EltTy.packing .f32)

variable [Facts₀]

def scatter_S518400x128_S160000x1_S160000x128_1_0_0_1 : ScatterDims S518400x128 S160000x1 S160000x128 where
  updateWindowDims := [1]
  insertedWindowDims := [0]
  scatterDimsToOperandDims := [0]
  indexVectorDim := 1
  wf := scatter_S518400x128_S160000x1_S160000x128_1_0_0_1_wf
def scatter_S518400_S160000x1_S160000_n_0_0_1 : ScatterDims S518400 S160000x1 S160000 where
  updateWindowDims := []
  insertedWindowDims := [0]
  scatterDimsToOperandDims := [0]
  indexVectorDim := 1
  wf := scatter_S518400_S160000x1_S160000_n_0_0_1_wf

abbrev win0_0 : Pipeline.Window sig grid0 :=
  Pipeline.Window.ofSpec (Memref.whole main_v24) S1x24x360x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x24x360.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128x24x360.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S160000x128 : Shape := ⟨2, ![160000, 128]⟩
abbrev S160000x4 : Shape := ⟨2, ![160000, 4]⟩
abbrev S160000x1 : Shape := ⟨2, ![160000, 1]⟩
abbrev S160000 : Shape := ⟨1, ![160000]⟩
abbrev S_ : Shape := ⟨0, ![]⟩
abbrev S518400x128 : Shape := ⟨2, ![518400, 128]⟩
abbrev S518400 : Shape := ⟨1, ![518400]⟩
abbrev S518400x1 : Shape := ⟨2, ![518400, 1]⟩
abbrev S4x129600x128 : Shape := ⟨3, ![4, 129600, 128]⟩
abbrev S4x128x129600 : Shape := ⟨3, ![4, 128, 129600]⟩
abbrev S4x128x360x360 : Shape := ⟨4, ![4, 128, 360, 360]⟩

abbrev nBuf : Space → Nat
  | .hbm => 41
  | .vmem => 0
  | .smem => 0
  | _ => 0

abbrev bufTy : (tb : Table) → Fin (tcTables nBuf tb) → BufTy
  | .hbm, ⟨0, _⟩ => ⟨S160000x128, .f32⟩
  | .hbm, ⟨1, _⟩ => ⟨S160000x4, .i32⟩
  | .hbm, ⟨2, _⟩ => ⟨S160000x1, .i32⟩
  | .hbm, ⟨3, _⟩ => ⟨S160000, .i32⟩
  | .hbm, ⟨4, _⟩ => ⟨S_, .i32⟩
  | .hbm, ⟨5, _⟩ => ⟨S160000, .i32⟩
  | .hbm, ⟨6, _⟩ => ⟨S160000, .i32⟩
  | .hbm, ⟨7, _⟩ => ⟨S160000x1, .i32⟩
  | .hbm, ⟨8, _⟩ => ⟨S160000, .i32⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .i32⟩
  | .hbm, ⟨14, _⟩ => ⟨S160000, .i32⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000, .i32⟩
  | .hbm, ⟨21, _⟩ => ⟨S160000, .i32⟩
  | .hbm, ⟨22, _⟩ => ⟨S_, .f32⟩
  | .hbm, ⟨23, _⟩ => ⟨S518400x128, .f32⟩
  | .hbm, ⟨24, _⟩ => ⟨S160000x1, .i32⟩
  | .hbm, ⟨25, _⟩ => ⟨S518400x128, .f32⟩
  | .hbm, ⟨26, _⟩ => ⟨S_, .f32⟩
  | .hbm, ⟨27, _⟩ => ⟨S160000, .f32⟩
  | .hbm, ⟨28, _⟩ => ⟨S_, .f32⟩
  | .hbm, ⟨29, _⟩ => ⟨S518400, .f32⟩
  | .hbm, ⟨30, _⟩ => ⟨S160000x1, .i32⟩
  | .hbm, ⟨31, _⟩ => ⟨S518400, .f32⟩
  | .hbm, ⟨32, _⟩ => ⟨S_, .f32⟩
  | .hbm, ⟨33, _⟩ => ⟨S518400, .f32⟩
  | .hbm, ⟨34, _⟩ => ⟨S518400, .f32⟩
  | .hbm, ⟨35, _⟩ => ⟨S518400x1, .f32⟩
  | .hbm, ⟨36, _⟩ => ⟨S518400x128, .f32⟩
  | .hbm, ⟨37, _⟩ => ⟨S518400x128, .f32⟩
  | .hbm, ⟨38, _⟩ => ⟨S4x129600x128, .f32⟩
  | .hbm, ⟨39, _⟩ => ⟨S4x128x129600, .f32⟩
  | .hbm, ⟨40, _⟩ => ⟨S4x128x360x360, .f32⟩
  | _, _ => ⟨S160000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  slices_S160000x4_S160000x1_0_0 : S160000x4.Slices ![0, 0] S160000x1
  shapeCasts_S160000x1_S160000 : S160000x1.ShapeCasts S160000
  bcast_S_S160000 : S_.BroadcastsInDim S160000 (![] : Fin 0 → Fin S160000.rank)
  slices_S160000x4_S160000x1_0_1 : S160000x4.Slices ![0, 1] S160000x1
  slices_S160000x4_S160000x1_0_2 : S160000x4.Slices ![0, 2] S160000x1
  slices_S160000x4_S160000x1_0_3 : S160000x4.Slices ![0, 3] S160000x1
  bcast_S_S518400x128 : S_.BroadcastsInDim S518400x128 (![] : Fin 0 → Fin S518400x128.rank)
  bcast_S160000_S160000x1_0 : S160000.BroadcastsInDim S160000x1 (![0] : Fin 1 → Fin S160000x1.rank)
  bcast_S_S518400 : S_.BroadcastsInDim S518400 (![] : Fin 0 → Fin S518400.rank)
  bcast_S518400_S518400x1_0 : S518400.BroadcastsInDim S518400x1 (![0] : Fin 1 → Fin S518400x1.rank)
  bcast_S518400x1_S518400x128_0_1 : S518400x1.BroadcastsInDim S518400x128 (![0, 1] : Fin 2 → Fin S518400x128.rank)
  shapeCasts_S518400x128_S4x129600x128 : S518400x128.ShapeCasts S4x129600x128
  transposes_S4x129600x128_S4x128x129600_0_2_1 : S4x129600x128.Transposes [0, 2, 1] S4x128x129600
  shapeCasts_S4x128x129600_S4x128x360x360 : S4x128x129600.ShapeCasts S4x128x360x360
  scatter_S518400x128_S160000x1_S160000x128_1_0_0_1_wf : ScatterDims.WF S518400x128 S160000x1 S160000x128 [1] [0] [0] 1
  scatter_S518400_S160000x1_S160000_n_0_0_1_wf : ScatterDims.WF S518400 S160000x1 S160000 [] [0] [0] 1

variable [Facts₀]

def scatter_S518400x128_S160000x1_S160000x128_1_0_0_1 : ScatterDims S518400x128 S160000x1 S160000x128 where
  updateWindowDims := [1]
  insertedWindowDims := [0]
  scatterDimsToOperandDims := [0]
  indexVectorDim := 1
  wf := scatter_S518400x128_S160000x1_S160000x128_1_0_0_1_wf
def scatter_S518400_S160000x1_S160000_n_0_0_1 : ScatterDims S518400 S160000x1 S160000 where
  updateWindowDims := []
  insertedWindowDims := [0]
  scatterDimsToOperandDims := [0]
  indexVectorDim := 1
  wf := scatter_S518400_S160000x1_S160000_n_0_0_1_wf

class Facts : Prop extends Facts₀ where

variable [Facts]
-- ==== Proof.MeanTiles.lean ====
/-
  The kernel's result array as ONE function of the two arrays its region reads.

  The region reads a[b, y, x, c] (per-cell feature sums, 4 x 360 x 360 x 128) and n[b, y, x] (per-cell counts,
  4 x 360 x 360) and writes o[b, c, y, x] (4 x 128 x 360 x 360). Grid point (b, k) of the 4 x 15 grid takes rows
  24 k .. 24 k + 23 of sample b from both inputs and writes the matching rows of every channel of sample b.
  Inside a block the body divides each feature sum by max(count, 1) of its cell and moves the channel axis to
  the front, so at block index (0, c, y, x) it leaves  a-block[0, y, x, c] / max(n-block[0, y, x], 1).
  Hence block (b, k) of the output is block (b, k) of the whole-array function

      cellMean a n [b, c, y, x] = a[b, y, x, c] / max(n[b, y, x], 1),

  and since the 60 blocks tile the output array, that function is what the array holds after the run.
-/
import proofs.«141791_j43104291783494_1_alg».proof.Proof.Gen.KernelIdeal.Value

noncomputable section

namespace Cert.KernelIdeal.Mean

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The whole-array function -/

/-- The cell of the sums array that output index (b, c, y, x) reads: (b, y, x, c). -/
abbrev sumCell (i : S4x128x360x360.Idx) : S4x360x360x128.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩

/-- The cell of the counts array that output index (b, c, y, x) reads: (b, y, x). -/
abbrev cntCell (i : S4x128x360x360.Idx) : S4x360x360.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- The mean per cell, channel axis first: o[b, c, y, x] = a[b, y, x, c] / max(n[b, y, x], 1). -/
abbrev cellMean (a : S4x360x360x128.Idx → Elt F .f32) (n : S4x360x360.Idx → Elt F .f32) : S4x128x360x360.Idx → Elt F .f32 :=
  fun i => FloatOps.divf (a (sumCell i)) (FloatOps.maximumf (n (cntCell i)) (Scalar.ofBits .f32 0x3F800000#32))

/-! ## One block -/

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- What the body leaves in the output block, from the two input blocks as whole vectors: at (0, c, y, x) the
    quotient of the sums block at (0, y, x, c) by the larger of the counts block at (0, y, x) and one. -/
theorem block_apply (x0 : Vec F S1x24x360x128 .f32) (x1 : Vec F S1x24x360 .f32) (y : S1x128x24x360.Idx) :
    out0_2 x0 x1 y = FloatOps.divf (x0 (ix2_0 y)) (FloatOps.maximumf (x1 (ix2_1 y)) (Scalar.ofBits .f32 0x3F800000#32)) := by
  unfold out0_2
  rw [canon2_eq]
  rw [View.ld_unit_zero (S := S1x24x360x128) zero4, View.ld_unit_zero (S := S1x24x360) zero3]

/-- How the three windows' blocks sit at a grid point, decided over the 60 points: the inputs' sample and row-tile
    coordinates are the output's, every other block coordinate is zero, and the output's stay in range. -/
theorem block_coords : ∀ t : Fin cfg0.N,
    win0_0.index t (0 : Fin 4) = win0_2.index t (0 : Fin 4)
    ∧ win0_0.index t (1 : Fin 4) = win0_2.index t (2 : Fin 4)
    ∧ win0_0.index t (2 : Fin 4) = 0
    ∧ win0_0.index t (3 : Fin 4) = 0
    ∧ win0_1.index t (0 : Fin 3) = win0_2.index t (0 : Fin 4)
    ∧ win0_1.index t (1 : Fin 3) = win0_2.index t (2 : Fin 4)
    ∧ win0_1.index t (2 : Fin 3) = 0
    ∧ win0_2.index t (1 : Fin 4) = 0
    ∧ win0_2.index t (3 : Fin 4) = 0
    ∧ win0_2.index t (0 : Fin 4) ≤ 3
    ∧ win0_2.index t (2 : Fin 4) ≤ 14 :=
  (by decide +kernel : ∀ t : Fin grid0.N, _)

/-- Every (sample, row tile) pair is some grid point's output block. -/
theorem block_onto : ∀ (b : Fin 4) (k : Fin 15), ∃ t : Fin cfg0.N, win0_2.index t = ![b.val, 0, k.val, 0] :=
  (by decide +kernel : ∀ (b : Fin 4) (k : Fin 15), ∃ t : Fin grid0.N, win0_2.index t = ![b.val, 0, k.val, 0])

/-- WHAT POINT `t` WRITES BACK is block `t` of `cellMean` of the two arrays as the region finds them. -/
theorem flushed_eq (c : Dev nD) (t : Fin cfg0.N) :
    (dats m 0 c).flushed 2 t = ((cfg0.win 2).blk t).view.read (Elt F) (cellMean (V m c main_v24) (V m c main_v25)) := by
  rw [flushed2]
  funext j
  show out0_2 (iblk m c 0 t) (iblk m c 1 t) j = cellMean (V m c main_v24) (V m c main_v25) (((cfg0.win 2).blk t).view.emb j)
  refine (block_apply (iblk m c 0 t) (iblk m c 1 t) j).trans ?_
  obtain ⟨e0, e1, e2, e3, e4, e5, e6, e7, e8, e9, e10⟩ := block_coords t
  have hj0 : (j 0).val < 1 := (j 0).isLt
  have hj1 : (j 1).val < 128 := (j 1).isLt
  have hj2 : (j 2).val < 24 := (j 2).isLt
  have hj3 : (j 3).val < 360 := (j 3).isLt
  show FloatOps.divf (V m c main_v24 (((cfg0.win 0).blk t).view.emb (ix2_0 j))) (FloatOps.maximumf (V m c main_v25 (((cfg0.win 1).blk t).view.emb (ix2_1 j))) (Scalar.ofBits .f32 0x3F800000#32))
     = FloatOps.divf (V m c main_v24 (sumCell (((cfg0.win 2).blk t).view.emb j))) (FloatOps.maximumf (V m c main_v25 (cntCell (((cfg0.win 2).blk t).view.emb j))) (Scalar.ofBits .f32 0x3F800000#32))
  have h0 : ((cfg0.win 0).blk t).view.emb (ix2_0 j) = sumCell (((cfg0.win 2).blk t).view.emb j) := by
    funext a; apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 24 + 1 * (j 2).val = win0_2.index t (2 : Fin 4) * 24 + 1 * (j 2).val; omega
    | ⟨2, _⟩ => show win0_0.index t (2 : Fin 4) * 360 + 1 * (j 3).val = win0_2.index t (3 : Fin 4) * 360 + 1 * (j 3).val; omega
    | ⟨3, _⟩ => show win0_0.index t (3 : Fin 4) * 128 + 1 * (j 1).val = win0_2.index t (1 : Fin 4) * 128 + 1 * (j 1).val; omega
  have h1 : ((cfg0.win 1).blk t).view.emb (ix2_1 j) = cntCell (((cfg0.win 2).blk t).view.emb j) := by
    funext a; apply Fin.ext
    match a with
    | ⟨0, _⟩ => show win0_1.index t (0 : Fin 3) * 1 + 1 * 0 = win0_2.index t (0 : Fin 4) * 1 + 1 * (j 0).val; omega
    | ⟨1, _⟩ => show win0_1.index t (1 : Fin 3) * 24 + 1 * (j 2).val = win0_2.index t (2 : Fin 4) * 24 + 1 * (j 2).val; omega
    | ⟨2, _⟩ => show win0_1.index t (2 : Fin 3) * 360 + 1 * (j 3).val = win0_2.index t (3 : Fin 4) * 360 + 1 * (j 3).val; omega
  rw [h0, h1]

/-! ## The blocks tile the array -/

/-- An index of the output array is in point `t`'s block iff each coordinate is in the block's range on its axis. -/
theorem mem_block (t : Fin cfg0.N) (i : S4x128x360x360.Idx) :
    i ∈ ((cfg0.win 2).blk t).view.set ↔ ∀ a : Fin 4, win0_2.index t a * S1x128x24x360.size a ≤ (i a).val ∧ (i a).val < win0_2.index t a * S1x128x24x360.size a + S1x128x24x360.size a := by
  show i ∈ ((View.whole main_v26).slice (win0_2.rect t)).set ↔ _
  rw [View.set_slice_whole, Rect.mem_set_unit]
  exact Iff.rfl

/-- Every index (b, c, y, x) of the output array is in the block of the point with sample b and row tile y / 24. -/
theorem covered (i : S4x128x360x360.Idx) :
    ∃ t : Fin cfg0.N, (cfg0.win 2).flush t = true ∧ i ∈ ((cfg0.win 2).blk t).view.set := by
  have hi0 : (i 0).val < 4 := (i 0).isLt
  have hi1 : (i 1).val < 128 := (i 1).isLt
  have hi2 : (i 2).val < 360 := (i 2).isLt
  have hi3 : (i 3).val < 360 := (i 3).isLt
  obtain ⟨t, ht⟩ := block_onto ⟨(i 0).val, hi0⟩ ⟨(i 2).val / 24, by omega⟩
  have q0 : win0_2.index t (0 : Fin 4) = (i 0).val := congrFun ht 0
  have q1 : win0_2.index t (1 : Fin 4) = 0 := congrFun ht 1
  have q2 : win0_2.index t (2 : Fin 4) = (i 2).val / 24 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 24 ≤ (i 2).val ∧ (i 2).val < win0_2.index t (2 : Fin 4) * 24 + 24; omega
  | ⟨3, _⟩ => show win0_2.index t (3 : Fin 4) * 360 ≤ (i 3).val ∧ (i 3).val < win0_2.index t (3 : Fin 4) * 360 + 360; omega

/-- THE ARRAY after the run is `cellMean` of the two arrays the region read. -/
theorem final (c : Dev nD) : (dats m 0 c).arrAt 2 cfg0.N = cellMean (V m c main_v24) (V m c main_v25) :=
  (dats m 0 c).arrAt_eq_of_cover 2 (cellMean (V m c main_v24) (V m c main_v25)) (fun t _ => flushed_eq m c t) covered

/-- The kernel's run with its result named: the transposed per-cell mean of the sums and counts arrays that its host
    operations left for the region, the arguments unchanged. -/
theorem run : θ_run defs (onTc (τ := τ) (main (F := F))) ⟨m, fun _ => 0, ρ⟩ fun r => ∀ c : Dev nD,
      r.2.mem ((c : Thread nD τ).loc main_v26) = cellMean (V m c main_v24) (V m c main_v25)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Mean

end
-- ==== Proof.RefCells.lean ====
/-
  The reference's result read at one index.

  With s[r, c] the scattered feature sums (518400 x 128) and n[r] the scattered counts (518400), the reference
  divides row r of s by max(n[r], 1), then re-lays the quotient: [518400, 128] -> [4, 129600, 128] ->
  (swap the last two axes) [4, 128, 129600] -> [4, 128, 360, 360]. Output index (b, c, y, x) has row-major
  position ((b * 128 + c) * 360 + y) * 360 + x; its coordinates in [4, 128, 129600] are (b, c, y * 360 + x), the
  swap sends it to (b, y * 360 + x, c), and the first reshape to row r = (b * 360 + y) * 360 + x, column c. So

      result[b, c, y, x] = s[(b * 360 + y) * 360 + x, c] / max(n[(b * 360 + y) * 360 + x], 1).
-/
import proofs.«141791_j43104291783494_1_alg».proof.Proof.Gen.ReferenceIdeal.Read

noncomputable section

namespace Cert.ReferenceIdeal.Mean

open Cert.ReferenceIdeal Cert.ReferenceIdeal.Gen Cert.ReferenceIdeal.Read Idealize.ShloMosaic Idealize.ShloMosaic.TcCoe Idealize.SL.Sem

variable {F : FTy → Type} [FloatOps F]

/-- The entry of the flat sums array that output index (b, c, y, x) reads: row (b * 360 + y) * 360 + x, column c. -/
abbrev sumAt (i : S4x128x360x360.Idx) : S518400x128.Idx := fun a => match a with
  | ⟨0, _⟩ => ⟨((i 0).val * 360 + (i 2).val) * 360 + (i 3).val, by
      have h0 : (i 0).val < 4 := (i 0).isLt; have h2 : (i 2).val < 360 := (i 2).isLt; have h3 : (i 3).val < 360 := (i 3).isLt
      show ((i 0).val * 360 + (i 2).val) * 360 + (i 3).val < 518400; omega⟩
  | ⟨1, _⟩ => ⟨(i 1).val, (i 1).isLt⟩

/-- The entry of the flat counts array that output index (b, c, y, x) reads: (b * 360 + y) * 360 + x. -/
abbrev cntAt (i : S4x128x360x360.Idx) : S518400.Idx := fun a => match a with
  | ⟨0, _⟩ => ⟨((i 0).val * 360 + (i 2).val) * 360 + (i 3).val, by
      have h0 : (i 0).val < 4 := (i 0).isLt; have h2 : (i 2).val < 360 := (i 2).isLt; have h3 : (i 3).val < 360 := (i 3).isLt
      show ((i 0).val * 360 + (i 2).val) * 360 + (i 3).val < 518400; omega⟩

/-- Through the two reshapes and the swap of the last two axes, output index (b, c, y, x) comes from row
    (b * 360 + y) * 360 + x, column c of the quotient. -/
theorem relaid (i : S4x128x360x360.Idx) : idx_main_v29 (idx_main_v30 (idx_main_v31 i)) = sumAt i := by
  have h0 : (i 0).val < 4 := (i 0).isLt
  have h1 : (i 1).val < 128 := (i 1).isLt
  have h2 : (i 2).val < 360 := (i 2).isLt
  have h3 : (i 3).val < 360 := (i 3).isLt
  -- the position ((b * 128 + c) * 360 + y) * 360 + x split at 16588800 = 128 * 129600 and at 129600 = 360 * 360
  have hb : ((((i 0).val * 128 + (i 1).val) * 360 + (i 2).val) * 360 + (i 3).val) / 16588800 = (i 0).val := by omega
  have hbc : ((((i 0).val * 128 + (i 1).val) * 360 + (i 2).val) * 360 + (i 3).val) / 129600 = (i 0).val * 128 + (i 1).val := by omega
  have hyx : ((((i 0).val * 128 + (i 1).val) * 360 + (i 2).val) * 360 + (i 3).val) % 129600 = (i 2).val * 360 + (i 3).val := by omega
  have hc : ((i 0).val * 128 + (i 1).val) % 128 = (i 1).val := by omega
  funext a; apply Fin.ext
  match a with
  | ⟨0, _⟩ =>
    show (((((((i 0).val * 128 + (i 1).val) * 360 + (i 2).val) * 360 + (i 3).val) / 16588800) * 129600 + (((((i 0).val * 128 + (i 1).val) * 360 + (i 2).val) * 360 + (i 3).val) % 129600)) * 128 + (((((i 0).val * 128 + (i 1).val) * 360 + (i 2).val) * 360 + (i 3).val) / 129600 % 128)) / 128 = ((i 0).val * 360 + (i 2).val) * 360 + (i 3).val
    rw [hb, hyx, hbc, hc]
    omega
  | ⟨1, _⟩ =>
    show (((((((i 0).val * 128 + (i 1).val) * 360 + (i 2).val) * 360 + (i 3).val) / 16588800) * 129600 + (((((i 0).val * 128 + (i 1).val) * 360 + (i 2).val) * 360 + (i 3).val) % 129600)) * 128 + (((((i 0).val * 128 + (i 1).val) * 360 + (i 2).val) * 360 + (i 3).val) / 129600 % 128)) % 128 = (i 1).val
    rw [hb, hyx, hbc, hc]
    omega

/-- The divisor's two broadcasts read row r of the counts for every column of row r. -/
theorem divisor_row (i : S4x128x360x360.Idx) : idx_main_v26 (idx_main_v27 (sumAt i)) = cntAt i := by
  funext a; apply Fin.ext
  match a with
  | ⟨0, _⟩ => rfl

/-- THE REFERENCE'S RESULT AT AN INDEX: the scattered sum of its cell and channel over the larger of the cell's
    scattered count and one. -/
theorem result_apply (x0 : (⟨S160000x128, .f32⟩ : BufTy).Contents (Elt F)) (x1 : (⟨S160000x4, .i32⟩ : BufTy).Contents (Elt F)) (i : S4x128x360x360.Idx) :
    val_main_v31 (F := F) x0 x1 i
      = FloatOps.hostDivf (val_main_v19 (F := F) x0 x1 (sumAt i)) (FloatOps.maximumf (val_main_v23 (F := F) x1 (cntAt i)) (FloatOps.ofBits .f32 0x3F800000#32)) := by
  rw [val_main_v31_apply, val_main_v30_apply, val_main_v29_apply, relaid, val_main_v28_apply, val_main_v27_apply,
    val_main_v26_apply, divisor_row, val_main_v25_apply, val_main_v24_apply, val_main_cst_4_apply]

end Cert.ReferenceIdeal.Mean

end
-- ==== Proof.SameCells.lean ====
/-
  The two programs compute one function.

  Both programs build, with the same host operations on the same arguments, the scattered feature sums
  s[r, c] (518400 x 128) and the scattered counts n[r] (518400); call them S and N as functions of the arguments.
  * The kernel's host side reshapes them to a[b, y, x, c] = s[(b * 360 + y) * 360 + x, c] and
    n'[b, y, x] = n[(b * 360 + y) * 360 + x] and hands those to the region, whose result is
    a[b, y, x, c] / max(n'[b, y, x], 1) at (b, c, y, x).
  * The reference's result at (b, c, y, x) is s[(b * 360 + y) * 360 + x, c] / max(n[(b * 360 + y) * 360 + x], 1).
  A reshape keeps row-major positions, so the two agree index by index; on the extended reals the kernel's
  quotient and the host's quotient are one function, and no property of the inputs is used.
-/
import proofs.«141791_j43104291783494_1_alg».proof.Proof.MeanTiles
import proofs.«141791_j43104291783494_1_alg».proof.Proof.RefCells
import Idealize.ShloMosaic.Lib.StableHlo.Run
import Idealize.ShloMosaic.Lib.Pipeline.Value
import Idealize.ShloMosaic.PureOps.Ideal

noncomputable section

namespace Cert.Proof.SameCells

open Idealize.ShloMosaic Idealize.ShloMosaic.TcCoe Idealize.SL.Sem Idealize.ShloMosaic.StableHlo
open Cert.KernelIdeal (nD τ sig main_arg0 main_arg1 main_v24 main_v25)
open Cert.KernelIdeal.Facts₀ (shapeCasts_S518400x128_S4x360x360x128 shapeCasts_S518400_S4x360x360)
open Cert.KernelIdeal.Mean (cellMean sumCell cntCell)
open Cert.ReferenceIdeal.Mean (sumAt cntAt)
open Cert.ReferenceIdeal.Read (val_main_v19 val_main_v23 val_main_v31)

variable {F : FTy → Type} [FloatOps F]
variable (m : (ℓ : Loc nD τ sig) → Buf (Elt F) ℓ)

/-! ## What the kernel's region finds in its two input arrays -/

set_option maxHeartbeats 2000000 in
/-- The sums array the region reads is the scattered sums of the arguments, reshaped to [4, 360, 360, 128]. -/
theorem sums_array (c : Dev nD) :
    (Cert.KernelIdeal.Gen.V m c main_v24 : Cert.KernelIdeal.S4x360x360x128.Idx → Elt F .f32)
      = shapeCast Cert.KernelIdeal.S4x360x360x128
          (val_main_v19 (F := F) (m ((c : Thread nD τ).loc main_arg0)) (m ((c : Thread nD τ).loc main_arg1)))
          shapeCasts_S518400x128_S4x360x360x128 := by
  dsimp only [Cert.KernelIdeal.Gen.V, Cert.KernelIdeal.Gen.hostOps0]
  after_results_simp
  rfl

set_option maxHeartbeats 2000000 in
/-- The counts array the region reads is the scattered counts of the index argument, reshaped to [4, 360, 360]. -/
theorem counts_array (c : Dev nD) :
    (Cert.KernelIdeal.Gen.V m c main_v25 : Cert.KernelIdeal.S4x360x360.Idx → Elt F .f32)
      = shapeCast Cert.KernelIdeal.S4x360x360
          (val_main_v23 (F := F) (m ((c : Thread nD τ).loc main_arg1)))
          shapeCasts_S518400_S4x360x360 := by
  dsimp only [Cert.KernelIdeal.Gen.V, Cert.KernelIdeal.Gen.hostOps0]
  after_results_simp
  rfl

/-! ## The two formulas meet -/

/-- On the extended reals, the per-cell mean of the reshaped scattered arrays, channel axis first, IS the
    reference's result: a reshape keeps row-major positions, and the two quotients are one function. -/
theorem mean_is_reference (x0 : (⟨Cert.ReferenceIdeal.S160000x128, .f32⟩ : BufTy).Contents (Elt Ideal))
    (x1 : (⟨Cert.ReferenceIdeal.S160000x4, .i32⟩ : BufTy).Contents (Elt Ideal)) :
    cellMean (F := Ideal)
        (shapeCast Cert.KernelIdeal.S4x360x360x128 (val_main_v19 (F := Ideal) x0 x1) shapeCasts_S518400x128_S4x360x360x128)
        (shapeCast Cert.KernelIdeal.S4x360x360 (val_main_v23 (F := Ideal) x1) shapeCasts_S518400_S4x360x360)
      = val_main_v31 (F := Ideal) x0 x1 := by
  funext i
  -- a reshape keeps row-major positions: grid cell (b, y, x, c) of the reshaped sums is row (b * 360 + y) * 360 + x, column c
  have hs : shapeCast Cert.KernelIdeal.S4x360x360x128 (val_main_v19 (F := Ideal) x0 x1) shapeCasts_S518400x128_S4x360x360x128 (sumCell i)
      = val_main_v19 (F := Ideal) x0 x1 (sumAt i) :=
    shapeCast_apply _ shapeCasts_S518400x128_S4x360x360x128 (sumCell i) (sumAt i) (by
      rw [Shape.rowMajor_val_two, Shape.rowMajor_val_four]; rfl)
  -- and grid cell (b, y, x) of the reshaped counts is entry (b * 360 + y) * 360 + x
  have hn : shapeCast Cert.KernelIdeal.S4x360x360 (val_main_v23 (F := Ideal) x1) shapeCasts_S518400_S4x360x360 (cntCell i)
      = val_main_v23 (F := Ideal) x1 (cntAt i) :=
    shapeCast_apply _ shapeCasts_S518400_S4x360x360 (cntCell i) (cntAt i) (by
      rw [Shape.rowMajor_val_one, Shape.rowMajor_val_three]; rfl)
  rw [Cert.ReferenceIdeal.Mean.result_apply, ← hs, ← hn]
  rfl

end Cert.Proof.SameCells

end
-- ==== Proof.lean ====
/-
  Scatter-mean into a dense grid, channel axis first: the kernel against its reference on the extended reals.

  Both programs scatter-add the 160000 feature rows, and a row of ones, into 4 * 360 * 360 = 518400 cells by the
  same fused cell index, giving sums s[r, c] and counts n[r]. The kernel reshapes both to the grid and, tile by
  tile (sample b, rows 24 k .. 24 k + 23), writes a[b, y, x, c] / max(n'[b, y, x], 1) at (b, c, y, x); the
  reference divides row r of s by max(n[r], 1) and then reshapes, swaps the channel and cell axes, and reshapes.
  Either way the entry at (b, c, y, x) is  s[(b * 360 + y) * 360 + x, c] / max(n[(b * 360 + y) * 360 + x], 1).

  * MeanTiles  — the kernel's result array is that per-cell mean of the two arrays its region reads: each of the
                 60 blocks is a block of it, and the blocks tile the array.
  * RefCells   — the reference's result at an index, through its re-layout and the divisor's broadcasts.
  * SameCells  — the region's two input arrays are the scattered arrays reshaped, and the two formulas meet:
                 a reshape keeps row-major positions and the two quotients are one function on the extended reals.
  No property of the inputs is used: the precondition is never opened. The idealization rewrote no operation, so the
  idealized kernel is the kernel's own text read on the extended reals and `preserves` has no conjunct.
-/
import proofs.«141791_j43104291783494_1_alg».proof.Defs
import proofs.«141791_j43104291783494_1_alg».proof.Proof.Gen.Kernel
import proofs.«141791_j43104291783494_1_alg».proof.Proof.Gen.Kernel.Skeleton
import proofs.«141791_j43104291783494_1_alg».proof.Proof.Gen.Kernel.Launch
import proofs.«141791_j43104291783494_1_alg».proof.Proof.Gen.Kernel.Points
import proofs.«141791_j43104291783494_1_alg».proof.Proof.Gen.Kernel.Frame
import proofs.«141791_j43104291783494_1_alg».proof.Proof.Gen.KernelIdeal
import proofs.«141791_j43104291783494_1_alg».proof.Proof.Gen.KernelIdeal.Skeleton
import proofs.«141791_j43104291783494_1_alg».proof.Proof.Gen.KernelIdeal.Launch
import proofs.«141791_j43104291783494_1_alg».proof.Proof.Gen.KernelIdeal.Points
import proofs.«141791_j43104291783494_1_alg».proof.Proof.Gen.KernelIdeal.Frame
import proofs.«141791_j43104291783494_1_alg».proof.Proof.Gen.KernelIdeal.Value
import proofs.«141791_j43104291783494_1_alg».proof.Proof.Gen.ReferenceIdeal
import proofs.«141791_j43104291783494_1_alg».proof.Proof.Gen.ReferenceIdeal.Run
import proofs.«141791_j43104291783494_1_alg».proof.Proof.Gen.ReferenceIdeal.Read
import proofs.«141791_j43104291783494_1_alg».proof.Proof.Gen.Pre_finite_inputs
import proofs.«141791_j43104291783494_1_alg».proof.Proof.MeanTiles
import proofs.«141791_j43104291783494_1_alg».proof.Proof.RefCells
import proofs.«141791_j43104291783494_1_alg».proof.Proof.SameCells
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, both programs end with the per-cell mean, channel axis first,
    of the scattered sums and counts of those arguments. -/
theorem algebraic : Cert.algebraic_KernelIdeal_ReferenceIdeal := by
  intro m ρ m' ρ' _ hagree
  refine ⟨fun c => Cert.KernelIdeal.Mean.cellMean (F := Ideal)
      (Cert.KernelIdeal.Gen.V m c Cert.KernelIdeal.main_v24) (Cert.KernelIdeal.Gen.V m c Cert.KernelIdeal.main_v25),
    Cert.KernelIdeal.Mean.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  show Cert.ReferenceIdeal.Read.val_main_v31 (F := Ideal) _ _
    = Cert.KernelIdeal.Mean.cellMean (F := Ideal)
        (Cert.KernelIdeal.Gen.V m c Cert.KernelIdeal.main_v24) (Cert.KernelIdeal.Gen.V m c Cert.KernelIdeal.main_v25)
  rw [Cert.Proof.SameCells.sums_array m c, Cert.Proof.SameCells.counts_array m c]
  exact (Cert.Proof.SameCells.mean_is_reference _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
